-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S5000x128 : Shape := ⟨2, ![5000, 128]⟩
abbrev S200x10000 : Shape := ⟨2, ![200, 10000]⟩
abbrev S200x128 : Shape := ⟨2, ![200, 128]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S5000x128, .f32⟩
  | .hbm, ⟨4, _⟩ => ⟨S5000x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S200x128_S200x128_0_0 : ∀ a, (![0, 0] : Fin 2 → Nat) a + S200x128.size a ≤ S200x128.size a
  h_S200x128 : 0 < S200x128.numel
  concatenates_S5000x128_S5000x128_S10000x128_d0 : Shape.Concatenates [S5000x128, S5000x128] S10000x128 0
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S5000x128.size a
  hwx0_4 : ∀ i : grid0.Coords, EltTy.bits .f32 = 32 ∨ (Rect.block (s := S5000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S5000x128.size a
  hwx0_5 : ∀ i : grid0.Coords, EltTy.bits .f32 = 32 ∨ (Rect.block (s := S5000x128) S200x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S200x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PointBody.lean ====
import proofs.«171977_g15144054685790_cont_week2b_97_10_alg».proof.Proof.Gen.KernelIdeal.Launch
import proofs.«171977_g15144054685790_cont_week2b_97_10_alg».proof.Proof.Gen.KernelIdeal.Skeleton
import proofs.«171977_g15144054685790_cont_week2b_97_10_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.Proof.GcnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-shape rectangle leaves its payload, whatever the buffer held. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩), View.canon_unit_zero hz]

/-- A load of a whole buffer through the whole-shape rectangle reads its contents. -/
theorem readAt_whole {sig' : RefSig} {κ : Kind} {sp : Space} {S : Shape} {e : EltTy} {Val : EltTy → Type}
    (v : View sig' κ sp S e) (f : v.ty.Contents Val) {off : Fin S.rank → Nat} (hz : off = fun _ => 0)
    (inb : ∀ a, off a + S.size a ≤ S.size a) (X : S.Idx → Val e) (hX : v.read Val f = X) :
    v.readAt Val (Rect.unit off S.size inb).toLoadRect f = X := by
  rw [← hX]; exact View.ld_unit_zero hz inb _

/-- The body's one branch: taken exactly when the grid coordinate is zero. -/
abbrev isFirst (i : grid0.Coords) : Prop :=
  (Scalar.cmpi .ne (Scalar.extui (Scalar.cmpi .eq (BitVec.ofNat 32 (i 0).val) 0#32)) 0#32) = 1#1

/-- At the first grid point the body fills the scratch with the projected features X W, then writes the two row
    blocks of the product with it, each a function of the blocks the point was handed. -/
theorem body_first (c : Dev nD) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S200x128 .f32) (harg6 : arg6.IsWhole)
    (arg7 : Memref sig .tc .vmem S10000x128 .f32) (harg7 : arg7.IsWhole)
    (x : Vec F S10000x128 .f32) (w : Vec F S128x128 .f32) (a3 a4 : Vec F S200x10000 .f32)
    (o5 o6 : Vec F S200x128 .f32) (s7 : Vec F S10000x128 .f32)
    (E : Set ℕ) (K : PUnit → sProp 𝕄) :
    iprop(owns (c : Thread nD τ) arg1 fullShare x ∗ owns (c : Thread nD τ) arg2 fullShare w
        ∗ owns (c : Thread nD τ) arg3 fullShare a3 ∗ owns (c : Thread nD τ) arg4 fullShare a4
        ∗ owns (c : Thread nD τ) arg5 fullShare o5 ∗ owns (c : Thread nD τ) arg6 fullShare o6
        ∗ owns (c : Thread nD τ) arg7 fullShare s7
        ∗ (iprop(owns (c : Thread nD τ) arg1 fullShare x ∗ owns (c : Thread nD τ) arg2 fullShare w
            ∗ owns (c : Thread nD τ) arg3 fullShare a3 ∗ owns (c : Thread nD τ) arg4 fullShare a4
            ∗ owns (c : Thread nD τ) arg5 fullShare (k0_pay2 a3 (k0_pay1 x w))
            ∗ owns (c : Thread nD τ) arg6 fullShare (k0_pay3 a4 (k0_pay1 x w))
            ∗ owns (c : Thread nD τ) arg7 fullShare (k0_pay1 x w)) -∗ K ⟨⟩))
      ⊢ wp frame (wpE (defs₀ (F := F)) Variants.none c none) E (cc0__gcn_fused_kernel i arg1 harg1 arg2 harg2 arg3 harg3 arg4 harg4 arg5 harg5 arg6 harg6 arg7 harg7) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := exact hc)
  sl_step
  have hz : (![0, 0] : Fin 2 → Nat) = fun _ => 0 := by funext a; fin_cases a <;> rfl
  have e1 := readAt_whole arg1.view (harg1.unread x) hz inb_S10000x128_S10000x128_0_0 x hf1
  have e2 := readAt_whole arg2.view (harg2.unread w) hz inb_S128x128_S128x128_0_0 w hf2
  have e3 := readAt_whole arg3.view (harg3.unread a3) hz inb_S200x10000_S200x10000_0_0 a3 hf3
  have e4 := readAt_whole arg4.view (harg4.unread a4) hz inb_S200x10000_S200x10000_0_0 a4 hf4
  have e7 := View.readCov_unit_zero (Val := Elt F) arg7.view hz inb_S10000x128_S10000x128_0_0 (k0_pay1 x w)
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_store_whole arg5.view (harg5.unread o5) hz inb_S200x128_S200x128_0_0 _).trans ?_
    sl_unfold_run_names
    rw [e3, e1, e2, View.readCov_unit_zero (Val := Elt F) arg7.view hz inb_S10000x128_S10000x128_0_0 (k0_pay1 x w)]
  isplitl [H6]
  · iexists _; isplitr; swap; · iexact H6
    ipureintro
    refine (read_store_whole arg6.view (harg6.unread o6) hz inb_S200x128_S200x128_0_0 _).trans ?_
    sl_unfold_run_names
    rw [e4, e1, e2, View.readCov_unit_zero (Val := Elt F) arg7.view hz inb_S10000x128_S10000x128_0_0 (k0_pay1 x w)]
  iexists _; isplitr; swap; · iexact H7
  ipureintro
  sl_unfold_run_names
  refine (read_store_whole arg7.view (harg7.unread s7) hz inb_S10000x128_S10000x128_0_0 _).trans ?_
  rw [e1, e2]

/-- At every later point the scratch is read as the point before left it, and the two row blocks are written with it. -/
theorem body_later (c : Dev nD) (i : grid0.Coords) (hc : ¬isFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S200x128 .f32) (harg6 : arg6.IsWhole)
    (arg7 : Memref sig .tc .vmem S10000x128 .f32) (harg7 : arg7.IsWhole)
    (x : Vec F S10000x128 .f32) (w : Vec F S128x128 .f32) (a3 a4 : Vec F S200x10000 .f32)
    (o5 o6 : Vec F S200x128 .f32) (s7 : Vec F S10000x128 .f32)
    (E : Set ℕ) (K : PUnit → sProp 𝕄) :
    iprop(owns (c : Thread nD τ) arg1 fullShare x ∗ owns (c : Thread nD τ) arg2 fullShare w
        ∗ owns (c : Thread nD τ) arg3 fullShare a3 ∗ owns (c : Thread nD τ) arg4 fullShare a4
        ∗ owns (c : Thread nD τ) arg5 fullShare o5 ∗ owns (c : Thread nD τ) arg6 fullShare o6
        ∗ owns (c : Thread nD τ) arg7 fullShare s7
        ∗ (iprop(owns (c : Thread nD τ) arg1 fullShare x ∗ owns (c : Thread nD τ) arg2 fullShare w
            ∗ owns (c : Thread nD τ) arg3 fullShare a3 ∗ owns (c : Thread nD τ) arg4 fullShare a4
            ∗ owns (c : Thread nD τ) arg5 fullShare (k0_pay2 a3 (s7))
            ∗ owns (c : Thread nD τ) arg6 fullShare (k0_pay3 a4 (s7))
            ∗ owns (c : Thread nD τ) arg7 fullShare (s7)) -∗ K ⟨⟩))
      ⊢ wp frame (wpE (defs₀ (F := F)) Variants.none c none) E (cc0__gcn_fused_kernel i arg1 harg1 arg2 harg2 arg3 harg3 arg4 harg4 arg5 harg5 arg6 harg6 arg7 harg7) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := exact hc)
  sl_step
  have hz : (![0, 0] : Fin 2 → Nat) = fun _ => 0 := by funext a; fin_cases a <;> rfl
  have e1 := readAt_whole arg1.view (harg1.unread x) hz inb_S10000x128_S10000x128_0_0 x hf1
  have e2 := readAt_whole arg2.view (harg2.unread w) hz inb_S128x128_S128x128_0_0 w hf2
  have e3 := readAt_whole arg3.view (harg3.unread a3) hz inb_S200x10000_S200x10000_0_0 a3 hf3
  have e4 := readAt_whole arg4.view (harg4.unread a4) hz inb_S200x10000_S200x10000_0_0 a4 hf4
  have e7 := readAt_whole arg7.view (harg7.unread s7) hz inb_S10000x128_S10000x128_0_0 s7 hf7
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_store_whole arg5.view (harg5.unread o5) hz inb_S200x128_S200x128_0_0 _).trans ?_
    sl_unfold_run_names
    rw [e3, e7]
  isplitl [H6]
  · iexists _; isplitr; swap; · iexact H6
    ipureintro
    refine (read_store_whole arg6.view (harg6.unread o6) hz inb_S200x128_S200x128_0_0 _).trans ?_
    sl_unfold_run_names
    rw [e4, e7]
  iexists _; isplitr; swap; · iexact H7
  ipureintro; exact hf7

end Cert.Proof.GcnI

end
-- ==== Proof.RegionData.lean ====
import proofs.«171977_g15144054685790_cont_week2b_97_10_alg».proof.Proof.PointBody
import Idealize.ShloMosaic.Lib.Pipeline.Regions

set_option maxRecDepth 16384

noncomputable section

namespace Cert.Proof.GcnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffers at launch, as a valuation: no host line runs before the region. -/
abbrev V₀ (c : Dev nD) : Valuation τ sig (Elt F) := fun b => m (c, b)
/-- The same read at a TensorCore reference. -/
abbrev V (c : Dev nD) (b : Ref sig .tc) : Buf (Elt F) ((c : Thread nD τ).loc b) := V₀ m c (Proc.devRef .tc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N_eq : cfg0.N = 25 := N_0
/-- The first grid point. -/
abbrev t₀ : Fin cfg0.N := ⟨0, by rw [N_eq]; decide⟩

/-- The projected features X W, as the first point computes them from the blocks of X and W it is handed. -/
def xw (c : Dev nD) : Vec F S10000x128 .f32 := k0_pay1 (iblk m c 0 t₀) (iblk m c 1 t₀)

/-- The scratch operand: a whole scoped buffer of the kernel's own. -/
abbrev scM : Memref sig .tc .vmem S10000x128 .f32 := Memref.whole cc0_scratch0

/-- The branch is taken at the first point and at no other. -/
theorem hfirst : ∀ t : Fin cfg0.N, isFirst (grid0.coords t) ↔ t.val = 0 :=
  (by decide +kernel : ∀ t : Fin grid0.N, isFirst (grid0.coords t) ↔ t.val = 0)

/-! ## The invariant: the scratch holds anything before the first point, the projected features after it -/

def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (xw m c)

theorem PhiS_pos (c : Dev nD) (n : ℕ) (hn : n ≠ 0) : PhiS m c n = owns (c : Thread nD τ) scM fullShare (xw m c) := by
  cases n with
  | zero => exact absurd rfl hn
  | succ n => rfl

/-! ## The proof data -/

/-- Each input's staging buffer keeps its block; each output's is left at the product of its block of rows of the
    adjacency matrix with the projected features. The two windows on the adjacency matrix hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 2 t) (xw m c)
    | ⟨5, _⟩ => k0_pay3 (iblk m c 3 t) (xw m c)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (iblk m c 2 t) (xw m c) := by dsimp only [dats]
theorem after_5 (c : Dev nD) (t : Fin cfg0.N) : (dats m 0 c).after 5 t = k0_pay3 (iblk m c 3 t) (xw m c) := by dsimp only [dats]

/-- An input's staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- Each window's current staging memref at point t, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x128 .f32 := win0_5.stage (cfg0.slots t 5)
abbrev hs5 (t : Fin cfg0.N) : (ms5 t).IsWhole := hstage0_5 ((cfg0.slots t 5).cast nbuf0_5)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point. At the first the scratch is handed over at anything and comes back at the projected
    features; at a later one it is handed over and comes back at them. The inputs' buffers hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_1, after_2, after_3, after_4, after_5]
  rw [show (dats m 0 c).owesAt () t.succ = (dats m 0 c).owesAt () t.castSucc from rfl]
  rw [show (dats m 0 c).Φ t.succ = owns (c : Thread nD τ) scM fullShare (xw m c) from rfl]
  by_cases hz : t.val = 0
  · obtain rfl : t = t₀ := Fin.ext hz
    rw [show (dats m 0 c).Φ (t₀ : Fin cfg0.N).castSucc = Pipeline.scopedRest (Ix := Unit) (Name := ℕ) (U := UR sig nD τ) (Lvl := ℕ) (Val := Elt F) spec0 c from rfl,
      scopedRest0_eq]
    iintro ⟨⟨%fs, HS⟩, Ho, ⟨%d0, H0⟩, ⟨%d1, H1⟩, ⟨%d2, H2⟩, ⟨%d3, H3⟩, ⟨%d4, H4⟩, ⟨%d5, H5⟩⟩
    iapply (body_first c (grid0.coords t₀) ((hfirst t₀).mpr rfl) (ms0 t₀) (hs0 t₀) (ms1 t₀) (hs1 t₀) (ms2 t₀) (hs2 t₀) (ms3 t₀) (hs3 t₀)
      (ms4 t₀) (hs4 t₀) (ms5 t₀) (hs5 t₀) scM (Memref.isWhole_whole _)
      (iblk m c 0 t₀) (iblk m c 1 t₀) (iblk m c 2 t₀) (iblk m c 3 t₀) ((dats m 0 c).before 4 t₀ d4) ((dats m 0 c).before 5 t₀ d5) fs Set.univ _)
    isplitl [H0]; · iexact H0
    isplitl [H1]; · iexact H1
    isplitl [H2]; · iexact H2
    isplitl [H3]; · iexact H3
    isplitl [H4]; · iexact H4
    isplitl [H5]; · iexact H5
    isplitl [HS]; · rw [owns_whole]; iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩, ⟨%d5, H5⟩⟩
    iapply (body_later c (grid0.coords t) (fun h => hz ((hfirst t).mp h)) (ms0 t) (hs0 t) (ms1 t) (hs1 t) (ms2 t) (hs2 t) (ms3 t) (hs3 t)
      (ms4 t) (hs4 t) (ms5 t) (hs5 t) scM (Memref.isWhole_whole _)
      (iblk m c 0 t) (iblk m c 1 t) (iblk m c 2 t) (iblk m c 3 t) ((dats m 0 c).before 4 t d4) ((dats m 0 c).before 5 t d5) (xw m c) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Proof.GcnI

end
-- ==== Proof.MainRun.lean ====
import proofs.«171977_g15144054685790_cont_week2b_97_10_alg».proof.Proof.RegionData

set_option maxRecDepth 16384

noncomputable section

namespace Cert.Proof.GcnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resource algebra's names for a kernel with no semaphore of its own -/

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The core owes nothing to any other. -/
abbrev Rw (c : Dev nD) : sProp 𝕄 := iprop(∃ W, owes (c : Thread nD τ) (0 : CellTallies nD τ sig Unit) W)
def u₀ : UR sig nD τ := initOf (Pipeline.cells cfgs cellOf_inj) (Pipeline.launchToks cfgs cellOf_inj)

/-! ## The arrays one by one -/

/-- The five buffers behind the six windows' arrays. -/
theorem arrBufs_list (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg2) ↦{fullShare} Vv main_arg2)
        ∗ (((c : Thread nD τ).loc main_arg1) ↦{fullShare} Vv main_arg1) ∗ (((c : Thread nD τ).loc main_v0_0) ↦{fullShare} Vv main_v0_0)
        ∗ (((c : Thread nD τ).loc main_v0_1) ↦{fullShare} Vv main_v0_1)) := by
  unfold Pipeline.arrBufs
  exact bigSep_eq_bigSepL_of_eq [main_arg0, main_arg2, main_arg1, main_v0_0, main_v0_1] (by decide) (by decide) _

/-- A window's array is a whole buffer: its points-to is the buffer's. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl

/-- The six windows' arrays at their shares: the adjacency matrix held in two halves by the two windows on it. -/
theorem arrays_list (c : Dev nD) (Fn : (w : Fin cfg0.W) → Buf (Elt F) ((cfg0.win w).arr.view.loc (c : Thread nD τ))) :
    ((dats m 0 c).arrays Fn : sProp 𝕄)
      = iprop((((c : Thread nD τ).loc (Pipeline.arrRef spec0 0)) ↦{fullShare} Fn 0) ∗ (((c : Thread nD τ).loc (Pipeline.arrRef spec0 1)) ↦{fullShare} Fn 1)
        ∗ (((c : Thread nD τ).loc (Pipeline.arrRef spec0 2)) ↦{fullShare.left} Fn 2) ∗ (((c : Thread nD τ).loc (Pipeline.arrRef spec0 3)) ↦{fullShare.right} Fn 3)
        ∗ (((c : Thread nD τ).loc (Pipeline.arrRef spec0 4)) ↦{fullShare} Fn 4) ∗ (((c : Thread nD τ).loc (Pipeline.arrRef spec0 5)) ↦{fullShare} Fn 5)) := by
  unfold Dat.arrays
  rw [bigSep_W0]
  simp only [share_0, share_1, share_2, share_3, share_4, share_5, View.set_whole]

/-- At the region's entry each array holds what the launch left in its buffer. -/
theorem arrAt_zero (c : Dev nD) (w : Fin cfg0.W) : (dats m 0 c).arrAt w 0 = V m c (Pipeline.arrRef spec0 w) :=
  (show (dats m 0 c).arrAt w 0 = (dats m 0 c).A w from rfl).trans (A_eq m c w)

/-- ENTRY: the buffers behind the arrays, each whole, are the windows' arrays at the region's entry. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  simp only [arrAt_zero]
  iintro ⟨H0, H2, H1, H4, H5⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  isplitl [H4]; · iexact H4
  iexact H5

/-- An input window's array is never written. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg2 := ((dats m 0 c).arrAt_in 1 rfl n).trans (A_eq m c 1)
theorem arrAt_in2 (c : Dev nD) (n : ℕ) : (dats m 0 c).arrAt 2 n = V m c main_arg1 := ((dats m 0 c).arrAt_in 2 rfl n).trans (A_eq m c 2)
theorem arrAt_in3 (c : Dev nD) (n : ℕ) : (dats m 0 c).arrAt 3 n = V m c main_arg1 := ((dats m 0 c).arrAt_in 3 rfl n).trans (A_eq m c 3)

/-- EXIT: the arrays after the last point are the three arguments as launched, the adjacency matrix whole again, and
    the two halves of the result at what the write-backs left. -/
theorem exit_join (c : Dev nD) :
    ((dats m 0 c).arrays ((dats m 0 c).arrAt · cfg0.N) : sProp 𝕄)
      ⊢ iprop((((c : Thread nD τ).loc main_arg0) ↦{fullShare} V m c main_arg0) ∗ (((c : Thread nD τ).loc main_arg2) ↦{fullShare} V m c main_arg2)
        ∗ (((c : Thread nD τ).loc main_arg1) ↦{fullShare} V m c main_arg1)
        ∗ (((c : Thread nD τ).loc main_v0_0) ↦{fullShare} (dats m 0 c).arrAt 4 cfg0.N) ∗ (((c : Thread nD τ).loc main_v0_1) ↦{fullShare} (dats m 0 c).arrAt 5 cfg0.N)) := by
  rw [arrays_list]
  simp only [arrAt_in0, arrAt_in1, arrAt_in2, arrAt_in3]
  iintro ⟨H0, H2, H1l, H1r, H4, H5⟩
  ihave H1 := (pointsTo_share (PosShare.mem_left_op_right fullShare)).2 $$ [H1l H1r]
  · isplitl [H1l] <;> iassumption
  isplitl [H0]; · iexact H0
  isplitl [H2]; · iexact H2
  isplitl [H1]; · iexact H1
  isplitl [H4]; · iexact H4
  iexact H5

end Cert.Proof.GcnI

end
-- ==== Proof.Segments.lean ====
import proofs.«171977_g15144054685790_cont_week2b_97_10_alg».proof.Proof.MainRun

set_option maxRecDepth 16384

noncomputable section

namespace Cert.Proof.GcnI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line after the region: the two halves joined -/

abbrev dv00 : DevRef τ sig := Proc.devRef .tc main_v0_0
abbrev dv01 : DevRef τ sig := Proc.devRef .tc main_v0_1
abbrev dv1 : DevRef τ sig := Proc.devRef .tc main_v1
/-- The three buffers the line names. -/
abbrev S3 : Finset (DevRef τ sig) := {dv00, dv01, dv1}

theorem ne_01_00 : (dv01 : DevRef τ sig) ≠ dv00 := StableHlo.devRef_ne_of_ne (by decide)
theorem ne_1_00 : (dv1 : DevRef τ sig) ≠ dv00 := StableHlo.devRef_ne_of_ne (by decide)
theorem ne_1_01 : (dv1 : DevRef τ sig) ≠ dv01 := StableHlo.devRef_ne_of_ne (by decide)

/-- The buffers' contents when the region is left: the two halves at what the write-backs made them, every other
    buffer as launched. -/
def Vt (c : Dev nD) : Valuation τ sig (Elt F) := fun b =>
  if h4 : b = dv00 then cast (congrArg (fun b' : DevRef τ sig => b'.ty.Contents (Elt F)) h4.symm) ((dats m 0 c).arrAt 4 cfg0.N)
  else if h5 : b = dv01 then cast (congrArg (fun b' : DevRef τ sig => b'.ty.Contents (Elt F)) h5.symm) ((dats m 0 c).arrAt 5 cfg0.N)
  else V₀ m c b

theorem Vt_lo (c : Dev nD) : Vt m c dv00 = (dats m 0 c).arrAt 4 cfg0.N := by
  unfold Vt; rw [dif_pos rfl]; rfl
theorem Vt_hi (c : Dev nD) : Vt m c dv01 = (dats m 0 c).arrAt 5 cfg0.N := by
  unfold Vt; rw [dif_neg ne_01_00, dif_pos rfl]; rfl
theorem Vt_v1 (c : Dev nD) : Vt m c dv1 = V m c main_v1 := by
  unfold Vt; rw [dif_neg ne_1_00, dif_neg ne_1_01]

/-- The three buffers held at a valuation, one by one. -/
theorem held_S3 (c : Dev nD) (W : Valuation τ sig (Elt F)) :
    (StableHlo.held (c : Thread nD τ) S3 W : sProp 𝕄)
      = iprop((((c : Thread nD τ).1, dv00) ↦{fullShare} W dv00) ∗ (((c : Thread nD τ).1, dv01) ↦{fullShare} W dv01) ∗ (((c : Thread nD τ).1, dv1) ↦{fullShare} W dv1)) := by
  unfold StableHlo.held
  rw [bigSep_insert (by
      simp only [Finset.mem_insert, Finset.mem_singleton, not_or]
      exact ⟨fun h => ne_01_00 h.symm, fun h => ne_1_00 h.symm⟩),
    bigSep_insert (by simp only [Finset.mem_singleton]; exact fun h => ne_1_01 h.symm), bigSep_singleton]
  rfl

theorem hostOps1_S3 : ∀ op ∈ (hostOps1 : List (HloOp τ sig (Elt F))), op.bufs ⊆ S3 := by
  intro op h
  simp only [hostOps1, List.mem_cons, List.mem_nil_iff, or_false] at h
  subst h
  exact Finset.Subset.refl _

theorem hostOps1_fresh : ∀ op ∈ (hostOps1 : List (HloOp τ sig (Elt F))), op.fresh = ∅ := by
  intro _ h; (repeat (cases h with | head => rfl | tail _ h => ?_)); exact nomatch h

/-- The arguments' buffers, whole, as launched: what rides beside the host line. -/
abbrev Args (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg1) ↦{fullShare} V m c main_arg1))

/-- THE HOST SEGMENT: the concatenate over its three buffers. -/
def seg1 : Pipeline.HostSeg (Name := ℕ) (U := UR sig nD τ) (pcfgs (F := F)) defs₀ 𝒱₀ L lv :=
  Pipeline.HostSeg.ofOps _ _ _ _ _ S3 hostOps1 hostOps1_S3 hostOps1_fresh (Vt m) (fun c => iprop(Args m c ∗ Rw c))

/-- The result the line writes: the two halves joined along the rows. -/
theorem tail_value (c : Dev nD) :
    StableHlo.after hostOps1 (Vt m c) dv1
      = concatenate S10000x128 0 [⟨S5000x128, (dats m 0 c).arrAt 4 cfg0.N⟩, ⟨S5000x128, (dats m 0 c).arrAt 5 cfg0.N⟩] concatenates_S5000x128_S5000x128_S10000x128_d0 := by
  rw [← Vt_lo, ← Vt_hi]
  simp only [hostOps1, StableHlo.after_cons, StableHlo.after_nil]
  exact StableHlo.binary_result' _ _ _ _ _

/-! ## The region -/

/-- The thread state at launch: the unscoped buffers as launched; the core owes nothing. -/
abbrev T₀ (c : Dev nD) : sProp 𝕄 :=
  iprop(unscopedBufs (Ix := Unit) (Name := ℕ) (U := UR sig nD τ) (Lvl := ℕ) c (V m c) ∗ Rw c)

theorem last_ne : (Fin.last cfg0.N).val ≠ 0 := by rw [Fin.val_last, N_eq]; decide

set_option backward.isDefEq.respectTransparency.types false in
/-- THE REGION: entered from the launch state, the adjacency matrix dealt in two halves to the two windows on it, the
    result's buffer bypassing; left with the arguments whole as launched and the two halves of the result written. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := T₀ m c
  post c := iprop(StableHlo.held (c : Thread nD τ) S3 (Vt m c) ∗ (Args m c ∗ Rw c))
  X _ := iprop(emp)
  Y _ := iprop(emp)
  Z c := ((c : Thread nD τ).loc main_v1) ↦{fullShare} V m c main_v1
  hentry c := by
    have hsplit := (Entails.of_eq (Pipeline.unscopedBufs_split₀ (Ix := Unit) (Name := ℕ) (U := UR sig nD τ) (Lvl := ℕ) cfgs 0 winFacts₀0.arr_unscoped c (V m c))).trans
      (BIClass.sep_mono (entry_split m c) (Entails.of_eq (unscopedRest0_eq c (V m c))))
    iintro ⟨⟨Hub, HO⟩, -, -⟩
    ihave H := hsplit $$ Hub
    icases H with ⟨Ha, H1⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H1
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [show (dats m 0 c).Φ (Fin.last cfg0.N) = PhiS m c (Fin.last cfg0.N).val from rfl, PhiS_pos m c _ last_ne, owns_whole]
    have e1 := Pipeline.ownSems0_none (nD := nD) (τ := τ) (sig := sig) (Ix := Unit) (Val := Elt F) (Name := ℕ) (U := UR sig nD τ) (Lvl := ℕ) c
    have e2 : iprop(∃ f : Buf (Elt F) ((c : Thread nD τ).loc cc0_scratch0), ((c : Thread nD τ).loc cc0_scratch0) ↦{fullShare} f)
        ⊢ (Pipeline.scopedRest (Ix := Unit) (Name := ℕ) (U := UR sig nD τ) (Lvl := ℕ) (Val := Elt F) spec0 c : sProp 𝕄) :=
      Entails.of_eq (scopedRest0_eq c).symm
    iintro HS
    isplitr; · iempintro
    isplitr; · rw [e1]; iempintro
    iapply e2
    iexists _; iexact HS
  hexit c := by
    iintro ⟨Ha, HO, -, HZ⟩
    ihave Ha := (exit_join m c) $$ Ha
    icases Ha with ⟨H0, H2, H1, H4, H5⟩
    imodintro
    isplitl [H4 H5 HZ]
    · rw [held_S3, Vt_lo, Vt_hi, Vt_v1]
      isplitl [H4]; · iexact H4
      isplitl [H5]; · iexact H5
      iexact HZ
    isplitl [H0 H2 H1]
    · isplitl [H0]; · iexact H0
      isplitl [H2]; · iexact H2
      iexact H1
    unfold Pipeline.Dat.owesAt Pipeline.owesWithin
    icases HO with ⟨%W, -, HO⟩; iexists W; iexact HO

/-- @main as the list of the two: the region, then the host line. -/
abbrev segs : List (Pipeline.Seg (pcfgs (F := F)) adm (dats m) () defs₀ 𝒱₀ L lv) := [.region (reg0 m), .host (seg1 m)]

/-- What is held at the end: the three buffers of the host line at its result, the arguments as launched. -/
abbrev Tₙ (c : Dev nD) : sProp 𝕄 :=
  iprop(StableHlo.held (c : Thread nD τ) S3 (StableHlo.after hostOps1 (Vt m c)) ∗ Args m c)

/-- The physical post: the result is the two halves the write-backs made, joined; the arguments are as launched. -/
def QC : PUnit × MemSt nD τ sig (Elt F) → Prop := fun r =>
  ∀ c : Dev nD,
    r.2.mem ((c.tc : Thread nD τ).loc main_v1)
        = concatenate S10000x128 0 [⟨S5000x128, (dats m 0 c).arrAt 4 cfg0.N⟩, ⟨S5000x128, (dats m 0 c).arrAt 5 cfg0.N⟩] concatenates_S5000x128_S5000x128_S10000x128_d0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

set_option backward.isDefEq.respectTransparency.types false in
/-- At the compiled mesh, for any float values, from any memory with zero counters: every weakly fair execution of @main
    terminates, nothing faulting, the result at the two halves joined and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := T₀ m) (Tₙ := Tₙ m)
    (hch := ⟨fun _ => .rfl, fun _ => .rfl, fun c =>
      (show iprop(StableHlo.held (c : Thread nD τ) S3 (StableHlo.after hostOps1 (Vt m c)) ∗ (Args m c ∗ Rw c))
          ⊢ iprop(Tₙ m c ∗ ∃ W, owes (c : Thread nD τ) (0 : CellTallies nD τ sig Unit) W) from by
        iintro ⟨Hh, Ha, HR⟩
        isplitl [Hh Ha]
        · isplitl [Hh] <;> iassumption
        iexact HR)⟩)
    (hinit := by
      refine Pipeline.initEach L lv fun c => ?_
      iintro ⟨⟨Hh, -, HO, -, -, -⟩, -⟩
      imodintro
      isplitl [Hh]; · iexact Hh
      iexists ∅; iexact HO)
    (QY := fun c s =>
      s.mem ((c.tc : Thread nD τ).loc main_v1)
          = concatenate S10000x128 0 [⟨S5000x128, (dats m 0 c).arrAt 4 cfg0.N⟩, ⟨S5000x128, (dats m 0 c).arrAt 5 cfg0.N⟩] concatenates_S5000x128_S5000x128_S10000x128_d0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tₙ]
      rw [held_S3]
      iintro ⟨⟨⟨-, -, Hv1⟩, H0, H2, H1⟩, HSI⟩
      icombine HSI Hv1 gives %hv
      icombine HSI H0 gives %h0
      icombine HSI H2 gives %h2
      icombine HSI H1 gives %h1
      imodintro
      isplitr
      · ipureintro
        exact ⟨(Buf.eq_of_forall_mem_univ hv).trans (tail_value m c), Buf.eq_of_forall_mem_univ h0, Buf.eq_of_forall_mem_univ h1, Buf.eq_of_forall_mem_univ h2⟩
      iexact HSI)
    (hQ := fun _ h => h)

end Cert.Proof.GcnI

end
-- ==== Proof.Word.PointBody.lean ====
import proofs.«171977_g15144054685790_cont_week2b_97_10_alg».proof.Proof.Gen.Kernel.Launch
import proofs.«171977_g15144054685790_cont_week2b_97_10_alg».proof.Proof.Gen.Kernel.Skeleton
import proofs.«171977_g15144054685790_cont_week2b_97_10_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Proof.GcnW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-shape rectangle leaves its payload, whatever the buffer held. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩), View.canon_unit_zero hz]

/-- A load of a whole buffer through the whole-shape rectangle reads its contents. -/
theorem readAt_whole {sig' : RefSig} {κ : Kind} {sp : Space} {S : Shape} {e : EltTy} {Val : EltTy → Type}
    (v : View sig' κ sp S e) (f : v.ty.Contents Val) {off : Fin S.rank → Nat} (hz : off = fun _ => 0)
    (inb : ∀ a, off a + S.size a ≤ S.size a) (X : S.Idx → Val e) (hX : v.read Val f = X) :
    v.readAt Val (Rect.unit off S.size inb).toLoadRect f = X := by
  rw [← hX]; exact View.ld_unit_zero hz inb _

/-- The body's one branch: taken exactly when the grid coordinate is zero. -/
abbrev isFirst (i : grid0.Coords) : Prop :=
  (Scalar.cmpi .ne (Scalar.extui (Scalar.cmpi .eq (BitVec.ofNat 32 (i 0).val) 0#32)) 0#32) = 1#1

/-- At the first grid point the body fills the scratch with the projected features X W, then writes the two row
    blocks of the product with it, each a function of the blocks the point was handed. -/
theorem body_first (c : Dev nD) (i : grid0.Coords) (hc : isFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S200x128 .f32) (harg6 : arg6.IsWhole)
    (arg7 : Memref sig .tc .vmem S10000x128 .f32) (harg7 : arg7.IsWhole)
    (x : Vec F S10000x128 .f32) (w : Vec F S128x128 .f32) (a3 a4 : Vec F S200x10000 .f32)
    (o5 o6 : Vec F S200x128 .f32) (s7 : Vec F S10000x128 .f32)
    (E : Set ℕ) (K : PUnit → sProp 𝕄) :
    iprop(owns (c : Thread nD τ) arg1 fullShare x ∗ owns (c : Thread nD τ) arg2 fullShare w
        ∗ owns (c : Thread nD τ) arg3 fullShare a3 ∗ owns (c : Thread nD τ) arg4 fullShare a4
        ∗ owns (c : Thread nD τ) arg5 fullShare o5 ∗ owns (c : Thread nD τ) arg6 fullShare o6
        ∗ owns (c : Thread nD τ) arg7 fullShare s7
        ∗ (iprop(owns (c : Thread nD τ) arg1 fullShare x ∗ owns (c : Thread nD τ) arg2 fullShare w
            ∗ owns (c : Thread nD τ) arg3 fullShare a3 ∗ owns (c : Thread nD τ) arg4 fullShare a4
            ∗ owns (c : Thread nD τ) arg5 fullShare (k0_pay2 a3 (k0_pay1 x w))
            ∗ owns (c : Thread nD τ) arg6 fullShare (k0_pay3 a4 (k0_pay1 x w))
            ∗ owns (c : Thread nD τ) arg7 fullShare (k0_pay1 x w)) -∗ K ⟨⟩))
      ⊢ wp frame (wpE (defs₀ (F := F)) Variants.none c none) E (cc0__gcn_fused_kernel i arg1 harg1 arg2 harg2 arg3 harg3 arg4 harg4 arg5 harg5 arg6 harg6 arg7 harg7) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := exact hc)
  sl_step
  have hz : (![0, 0] : Fin 2 → Nat) = fun _ => 0 := by funext a; fin_cases a <;> rfl
  have e1 := readAt_whole arg1.view (harg1.unread x) hz inb_S10000x128_S10000x128_0_0 x hf1
  have e2 := readAt_whole arg2.view (harg2.unread w) hz inb_S128x128_S128x128_0_0 w hf2
  have e3 := readAt_whole arg3.view (harg3.unread a3) hz inb_S200x10000_S200x10000_0_0 a3 hf3
  have e4 := readAt_whole arg4.view (harg4.unread a4) hz inb_S200x10000_S200x10000_0_0 a4 hf4
  have e7 := View.readCov_unit_zero (Val := Elt F) arg7.view hz inb_S10000x128_S10000x128_0_0 (k0_pay1 x w)
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_store_whole arg5.view (harg5.unread o5) hz inb_S200x128_S200x128_0_0 _).trans ?_
    sl_unfold_run_names
    rw [e3, e1, e2, View.readCov_unit_zero (Val := Elt F) arg7.view hz inb_S10000x128_S10000x128_0_0 (k0_pay1 x w)]
  isplitl [H6]
  · iexists _; isplitr; swap; · iexact H6
    ipureintro
    refine (read_store_whole arg6.view (harg6.unread o6) hz inb_S200x128_S200x128_0_0 _).trans ?_
    sl_unfold_run_names
    rw [e4, e1, e2, View.readCov_unit_zero (Val := Elt F) arg7.view hz inb_S10000x128_S10000x128_0_0 (k0_pay1 x w)]
  iexists _; isplitr; swap; · iexact H7
  ipureintro
  sl_unfold_run_names
  refine (read_store_whole arg7.view (harg7.unread s7) hz inb_S10000x128_S10000x128_0_0 _).trans ?_
  rw [e1, e2]

/-- At every later point the scratch is read as the point before left it, and the two row blocks are written with it. -/
theorem body_later (c : Dev nD) (i : grid0.Coords) (hc : ¬isFirst i)
    (arg1 : Memref sig .tc .vmem S10000x128 .f32) (harg1 : arg1.IsWhole) (arg2 : Memref sig .tc .vmem S128x128 .f32) (harg2 : arg2.IsWhole)
    (arg3 : Memref sig .tc .vmem S200x10000 .f32) (harg3 : arg3.IsWhole) (arg4 : Memref sig .tc .vmem S200x10000 .f32) (harg4 : arg4.IsWhole)
    (arg5 : Memref sig .tc .vmem S200x128 .f32) (harg5 : arg5.IsWhole) (arg6 : Memref sig .tc .vmem S200x128 .f32) (harg6 : arg6.IsWhole)
    (arg7 : Memref sig .tc .vmem S10000x128 .f32) (harg7 : arg7.IsWhole)
    (x : Vec F S10000x128 .f32) (w : Vec F S128x128 .f32) (a3 a4 : Vec F S200x10000 .f32)
    (o5 o6 : Vec F S200x128 .f32) (s7 : Vec F S10000x128 .f32)
    (E : Set ℕ) (K : PUnit → sProp 𝕄) :
    iprop(owns (c : Thread nD τ) arg1 fullShare x ∗ owns (c : Thread nD τ) arg2 fullShare w
        ∗ owns (c : Thread nD τ) arg3 fullShare a3 ∗ owns (c : Thread nD τ) arg4 fullShare a4
        ∗ owns (c : Thread nD τ) arg5 fullShare o5 ∗ owns (c : Thread nD τ) arg6 fullShare o6
        ∗ owns (c : Thread nD τ) arg7 fullShare s7
        ∗ (iprop(owns (c : Thread nD τ) arg1 fullShare x ∗ owns (c : Thread nD τ) arg2 fullShare w
            ∗ owns (c : Thread nD τ) arg3 fullShare a3 ∗ owns (c : Thread nD τ) arg4 fullShare a4
            ∗ owns (c : Thread nD τ) arg5 fullShare (k0_pay2 a3 (s7))
            ∗ owns (c : Thread nD τ) arg6 fullShare (k0_pay3 a4 (s7))
            ∗ owns (c : Thread nD τ) arg7 fullShare (s7)) -∗ K ⟨⟩))
      ⊢ wp frame (wpE (defs₀ (F := F)) Variants.none c none) E (cc0__gcn_fused_kernel i arg1 harg1 arg2 harg2 arg3 harg3 arg4 harg4 arg5 harg5 arg6 harg6 arg7 harg7) K := by
  simp only [cc0__gcn_fused_kernel_eq_skeleton]; unfold cc0__gcn_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := exact hc)
  sl_step
  have hz : (![0, 0] : Fin 2 → Nat) = fun _ => 0 := by funext a; fin_cases a <;> rfl
  have e1 := readAt_whole arg1.view (harg1.unread x) hz inb_S10000x128_S10000x128_0_0 x hf1
  have e2 := readAt_whole arg2.view (harg2.unread w) hz inb_S128x128_S128x128_0_0 w hf2
  have e3 := readAt_whole arg3.view (harg3.unread a3) hz inb_S200x10000_S200x10000_0_0 a3 hf3
  have e4 := readAt_whole arg4.view (harg4.unread a4) hz inb_S200x10000_S200x10000_0_0 a4 hf4
  have e7 := readAt_whole arg7.view (harg7.unread s7) hz inb_S10000x128_S10000x128_0_0 s7 hf7
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_store_whole arg5.view (harg5.unread o5) hz inb_S200x128_S200x128_0_0 _).trans ?_
    sl_unfold_run_names
    rw [e3, e7]
  isplitl [H6]
  · iexists _; isplitr; swap; · iexact H6
    ipureintro
    refine (read_store_whole arg6.view (harg6.unread o6) hz inb_S200x128_S200x128_0_0 _).trans ?_
    sl_unfold_run_names
    rw [e4, e7]
  iexists _; isplitr; swap; · iexact H7
  ipureintro; exact hf7

end Cert.Proof.GcnW

end
-- ==== Proof.Word.RegionData.lean ====
import proofs.«171977_g15144054685790_cont_week2b_97_10_alg».proof.Proof.Word.PointBody
import Idealize.ShloMosaic.Lib.Pipeline.Regions

set_option maxRecDepth 16384

noncomputable section

namespace Cert.Proof.GcnW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffers at launch, as a valuation: no host line runs before the region. -/
abbrev V₀ (c : Dev nD) : Valuation τ sig (Elt F) := fun b => m (c, b)
/-- The same read at a TensorCore reference. -/
abbrev V (c : Dev nD) (b : Ref sig .tc) : Buf (Elt F) ((c : Thread nD τ).loc b) := V₀ m c (Proc.devRef .tc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem N_eq : cfg0.N = 25 := N_0
/-- The first grid point. -/
abbrev t₀ : Fin cfg0.N := ⟨0, by rw [N_eq]; decide⟩

/-- The projected features X W, as the first point computes them from the blocks of X and W it is handed. -/
def xw (c : Dev nD) : Vec F S10000x128 .f32 := k0_pay1 (iblk m c 0 t₀) (iblk m c 1 t₀)

/-- The scratch operand: a whole scoped buffer of the kernel's own. -/
abbrev scM : Memref sig .tc .vmem S10000x128 .f32 := Memref.whole cc0_scratch0

/-- The branch is taken at the first point and at no other. -/
theorem hfirst : ∀ t : Fin cfg0.N, isFirst (grid0.coords t) ↔ t.val = 0 :=
  (by decide +kernel : ∀ t : Fin grid0.N, isFirst (grid0.coords t) ↔ t.val = 0)

/-! ## The invariant: the scratch holds anything before the first point, the projected features after it -/

def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (xw m c)

theorem PhiS_pos (c : Dev nD) (n : ℕ) (hn : n ≠ 0) : PhiS m c n = owns (c : Thread nD τ) scM fullShare (xw m c) := by
  cases n with
  | zero => exact absurd rfl hn
  | succ n => rfl

/-! ## The proof data -/

/-- Each input's staging buffer keeps its block; each output's is left at the product of its block of rows of the
    adjacency matrix with the projected features. The two windows on the adjacency matrix hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 2 t) (xw m c)
    | ⟨5, _⟩ => k0_pay3 (iblk m c 3 t) (xw m c)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (iblk m c 2 t) (xw m c) := by dsimp only [dats]
theorem after_5 (c : Dev nD) (t : Fin cfg0.N) : (dats m 0 c).after 5 t = k0_pay3 (iblk m c 3 t) (xw m c) := by dsimp only [dats]

/-- An input's staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- Each window's current staging memref at point t, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x128 .f32 := win0_5.stage (cfg0.slots t 5)
abbrev hs5 (t : Fin cfg0.N) : (ms5 t).IsWhole := hstage0_5 ((cfg0.slots t 5).cast nbuf0_5)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point. At the first the scratch is handed over at anything and comes back at the projected
    features; at a later one it is handed over and comes back at them. The inputs' buffers hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, after_0, after_1, after_2, after_3, after_4, after_5]
  rw [show (dats m 0 c).owesAt () t.succ = (dats m 0 c).owesAt () t.castSucc from rfl]
  rw [show (dats m 0 c).Φ t.succ = owns (c : Thread nD τ) scM fullShare (xw m c) from rfl]
  by_cases hz : t.val = 0
  · obtain rfl : t = t₀ := Fin.ext hz
    rw [show (dats m 0 c).Φ (t₀ : Fin cfg0.N).castSucc = Pipeline.scopedRest (Ix := Unit) (Name := ℕ) (U := UR sig nD τ) (Lvl := ℕ) (Val := Elt F) spec0 c from rfl,
      scopedRest0_eq]
    iintro ⟨⟨%fs, HS⟩, Ho, ⟨%d0, H0⟩, ⟨%d1, H1⟩, ⟨%d2, H2⟩, ⟨%d3, H3⟩, ⟨%d4, H4⟩, ⟨%d5, H5⟩⟩
    iapply (body_first c (grid0.coords t₀) ((hfirst t₀).mpr rfl) (ms0 t₀) (hs0 t₀) (ms1 t₀) (hs1 t₀) (ms2 t₀) (hs2 t₀) (ms3 t₀) (hs3 t₀)
      (ms4 t₀) (hs4 t₀) (ms5 t₀) (hs5 t₀) scM (Memref.isWhole_whole _)
      (iblk m c 0 t₀) (iblk m c 1 t₀) (iblk m c 2 t₀) (iblk m c 3 t₀) ((dats m 0 c).before 4 t₀ d4) ((dats m 0 c).before 5 t₀ d5) fs Set.univ _)
    isplitl [H0]; · iexact H0
    isplitl [H1]; · iexact H1
    isplitl [H2]; · iexact H2
    isplitl [H3]; · iexact H3
    isplitl [H4]; · iexact H4
    isplitl [H5]; · iexact H5
    isplitl [HS]; · rw [owns_whole]; iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).Φ t.castSucc = PhiS m c t.val from rfl, PhiS_pos m c _ hz]
    iintro ⟨HS, Ho, ⟨%d0, H0⟩, ⟨%d1, H1⟩, ⟨%d2, H2⟩, ⟨%d3, H3⟩, ⟨%d4, H4⟩, ⟨%d5, H5⟩⟩
    iapply (body_later c (grid0.coords t) (fun h => hz ((hfirst t).mp h)) (ms0 t) (hs0 t) (ms1 t) (hs1 t) (ms2 t) (hs2 t) (ms3 t) (hs3 t)
      (ms4 t) (hs4 t) (ms5 t) (hs5 t) scM (Memref.isWhole_whole _)
      (iblk m c 0 t) (iblk m c 1 t) (iblk m c 2 t) (iblk m c 3 t) ((dats m 0 c).before 4 t d4) ((dats m 0 c).before 5 t d5) (xw m c) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Proof.GcnW

end
-- ==== Proof.Word.MainRun.lean ====
import proofs.«171977_g15144054685790_cont_week2b_97_10_alg».proof.Proof.Word.RegionData

set_option maxRecDepth 16384

noncomputable section

namespace Cert.Proof.GcnW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The resource algebra's names for a kernel with no semaphore of its own -/

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The core owes nothing to any other. -/
abbrev Rw (c : Dev nD) : sProp 𝕄 := iprop(∃ W, owes (c : Thread nD τ) (0 : CellTallies nD τ sig Unit) W)
def u₀ : UR sig nD τ := initOf (Pipeline.cells cfgs cellOf_inj) (Pipeline.launchToks cfgs cellOf_inj)

/-! ## The arrays one by one -/

/-- The five buffers behind the six windows' arrays. -/
theorem arrBufs_list (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg2) ↦{fullShare} Vv main_arg2)
        ∗ (((c : Thread nD τ).loc main_arg1) ↦{fullShare} Vv main_arg1) ∗ (((c : Thread nD τ).loc main_v0_0) ↦{fullShare} Vv main_v0_0)
        ∗ (((c : Thread nD τ).loc main_v0_1) ↦{fullShare} Vv main_v0_1)) := by
  unfold Pipeline.arrBufs
  exact bigSep_eq_bigSepL_of_eq [main_arg0, main_arg2, main_arg1, main_v0_0, main_v0_1] (by decide) (by decide) _

/-- A window's array is a whole buffer: its points-to is the buffer's. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.right := rfl
theorem share_4 (c : Dev nD) : (dats m 0 c).share 4 = fullShare := rfl
theorem share_5 (c : Dev nD) : (dats m 0 c).share 5 = fullShare := rfl

/-- The six windows' arrays at their shares: the adjacency matrix held in two halves by the two windows on it. -/
theorem arrays_list (c : Dev nD) (Fn : (w : Fin cfg0.W) → Buf (Elt F) ((cfg0.win w).arr.view.loc (c : Thread nD τ))) :
    ((dats m 0 c).arrays Fn : sProp 𝕄)
      = iprop((((c : Thread nD τ).loc (Pipeline.arrRef spec0 0)) ↦{fullShare} Fn 0) ∗ (((c : Thread nD τ).loc (Pipeline.arrRef spec0 1)) ↦{fullShare} Fn 1)
        ∗ (((c : Thread nD τ).loc (Pipeline.arrRef spec0 2)) ↦{fullShare.left} Fn 2) ∗ (((c : Thread nD τ).loc (Pipeline.arrRef spec0 3)) ↦{fullShare.right} Fn 3)
        ∗ (((c : Thread nD τ).loc (Pipeline.arrRef spec0 4)) ↦{fullShare} Fn 4) ∗ (((c : Thread nD τ).loc (Pipeline.arrRef spec0 5)) ↦{fullShare} Fn 5)) := by
  unfold Dat.arrays
  rw [bigSep_W0]
  simp only [share_0, share_1, share_2, share_3, share_4, share_5, View.set_whole]

/-- At the region's entry each array holds what the launch left in its buffer. -/
theorem arrAt_zero (c : Dev nD) (w : Fin cfg0.W) : (dats m 0 c).arrAt w 0 = V m c (Pipeline.arrRef spec0 w) :=
  (show (dats m 0 c).arrAt w 0 = (dats m 0 c).A w from rfl).trans (A_eq m c w)

/-- ENTRY: the buffers behind the arrays, each whole, are the windows' arrays at the region's entry. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  simp only [arrAt_zero]
  iintro ⟨H0, H2, H1, H4, H5⟩
  ihave H1 := (pointsTo_share (PosShare.mem_left_op_right fullShare)).1 $$ H1
  icases H1 with ⟨H1l, H1r⟩
  isplitl [H0]; · iexact H0
  isplitl [H2]; · iexact H2
  isplitl [H1l]; · iexact H1l
  isplitl [H1r]; · iexact H1r
  isplitl [H4]; · iexact H4
  iexact H5

/-- An input window's array is never written. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg2 := ((dats m 0 c).arrAt_in 1 rfl n).trans (A_eq m c 1)
theorem arrAt_in2 (c : Dev nD) (n : ℕ) : (dats m 0 c).arrAt 2 n = V m c main_arg1 := ((dats m 0 c).arrAt_in 2 rfl n).trans (A_eq m c 2)
theorem arrAt_in3 (c : Dev nD) (n : ℕ) : (dats m 0 c).arrAt 3 n = V m c main_arg1 := ((dats m 0 c).arrAt_in 3 rfl n).trans (A_eq m c 3)

/-- EXIT: the arrays after the last point are the three arguments as launched, the adjacency matrix whole again, and
    the two halves of the result at what the write-backs left. -/
theorem exit_join (c : Dev nD) :
    ((dats m 0 c).arrays ((dats m 0 c).arrAt · cfg0.N) : sProp 𝕄)
      ⊢ iprop((((c : Thread nD τ).loc main_arg0) ↦{fullShare} V m c main_arg0) ∗ (((c : Thread nD τ).loc main_arg2) ↦{fullShare} V m c main_arg2)
        ∗ (((c : Thread nD τ).loc main_arg1) ↦{fullShare} V m c main_arg1)
        ∗ (((c : Thread nD τ).loc main_v0_0) ↦{fullShare} (dats m 0 c).arrAt 4 cfg0.N) ∗ (((c : Thread nD τ).loc main_v0_1) ↦{fullShare} (dats m 0 c).arrAt 5 cfg0.N)) := by
  rw [arrays_list]
  simp only [arrAt_in0, arrAt_in1, arrAt_in2, arrAt_in3]
  iintro ⟨H0, H2, H1l, H1r, H4, H5⟩
  ihave H1 := (pointsTo_share (PosShare.mem_left_op_right fullShare)).2 $$ [H1l H1r]
  · isplitl [H1l] <;> iassumption
  isplitl [H0]; · iexact H0
  isplitl [H2]; · iexact H2
  isplitl [H1]; · iexact H1
  isplitl [H4]; · iexact H4
  iexact H5

end Cert.Proof.GcnW

end
-- ==== Proof.Word.Segments.lean ====
import proofs.«171977_g15144054685790_cont_week2b_97_10_alg».proof.Proof.Word.MainRun

set_option maxRecDepth 16384

noncomputable section

namespace Cert.Proof.GcnW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line after the region: the two halves joined -/

abbrev dv00 : DevRef τ sig := Proc.devRef .tc main_v0_0
abbrev dv01 : DevRef τ sig := Proc.devRef .tc main_v0_1
abbrev dv1 : DevRef τ sig := Proc.devRef .tc main_v1
/-- The three buffers the line names. -/
abbrev S3 : Finset (DevRef τ sig) := {dv00, dv01, dv1}

theorem ne_01_00 : (dv01 : DevRef τ sig) ≠ dv00 := StableHlo.devRef_ne_of_ne (by decide)
theorem ne_1_00 : (dv1 : DevRef τ sig) ≠ dv00 := StableHlo.devRef_ne_of_ne (by decide)
theorem ne_1_01 : (dv1 : DevRef τ sig) ≠ dv01 := StableHlo.devRef_ne_of_ne (by decide)

/-- The buffers' contents when the region is left: the two halves at what the write-backs made them, every other
    buffer as launched. -/
def Vt (c : Dev nD) : Valuation τ sig (Elt F) := fun b =>
  if h4 : b = dv00 then cast (congrArg (fun b' : DevRef τ sig => b'.ty.Contents (Elt F)) h4.symm) ((dats m 0 c).arrAt 4 cfg0.N)
  else if h5 : b = dv01 then cast (congrArg (fun b' : DevRef τ sig => b'.ty.Contents (Elt F)) h5.symm) ((dats m 0 c).arrAt 5 cfg0.N)
  else V₀ m c b

theorem Vt_lo (c : Dev nD) : Vt m c dv00 = (dats m 0 c).arrAt 4 cfg0.N := by
  unfold Vt; rw [dif_pos rfl]; rfl
theorem Vt_hi (c : Dev nD) : Vt m c dv01 = (dats m 0 c).arrAt 5 cfg0.N := by
  unfold Vt; rw [dif_neg ne_01_00, dif_pos rfl]; rfl
theorem Vt_v1 (c : Dev nD) : Vt m c dv1 = V m c main_v1 := by
  unfold Vt; rw [dif_neg ne_1_00, dif_neg ne_1_01]

/-- The three buffers held at a valuation, one by one. -/
theorem held_S3 (c : Dev nD) (W : Valuation τ sig (Elt F)) :
    (StableHlo.held (c : Thread nD τ) S3 W : sProp 𝕄)
      = iprop((((c : Thread nD τ).1, dv00) ↦{fullShare} W dv00) ∗ (((c : Thread nD τ).1, dv01) ↦{fullShare} W dv01) ∗ (((c : Thread nD τ).1, dv1) ↦{fullShare} W dv1)) := by
  unfold StableHlo.held
  rw [bigSep_insert (by
      simp only [Finset.mem_insert, Finset.mem_singleton, not_or]
      exact ⟨fun h => ne_01_00 h.symm, fun h => ne_1_00 h.symm⟩),
    bigSep_insert (by simp only [Finset.mem_singleton]; exact fun h => ne_1_01 h.symm), bigSep_singleton]
  rfl

theorem hostOps1_S3 : ∀ op ∈ (hostOps1 : List (HloOp τ sig (Elt F))), op.bufs ⊆ S3 := by
  intro op h
  simp only [hostOps1, List.mem_cons, List.mem_nil_iff, or_false] at h
  subst h
  exact Finset.Subset.refl _

theorem hostOps1_fresh : ∀ op ∈ (hostOps1 : List (HloOp τ sig (Elt F))), op.fresh = ∅ := by
  intro _ h; (repeat (cases h with | head => rfl | tail _ h => ?_)); exact nomatch h

/-- The arguments' buffers, whole, as launched: what rides beside the host line. -/
abbrev Args (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg1) ↦{fullShare} V m c main_arg1))

/-- THE HOST SEGMENT: the concatenate over its three buffers. -/
def seg1 : Pipeline.HostSeg (Name := ℕ) (U := UR sig nD τ) (pcfgs (F := F)) defs₀ 𝒱₀ L lv :=
  Pipeline.HostSeg.ofOps _ _ _ _ _ S3 hostOps1 hostOps1_S3 hostOps1_fresh (Vt m) (fun c => iprop(Args m c ∗ Rw c))

/-- The result the line writes: the two halves joined along the rows. -/
theorem tail_value (c : Dev nD) :
    StableHlo.after hostOps1 (Vt m c) dv1
      = concatenate S10000x128 0 [⟨S5000x128, (dats m 0 c).arrAt 4 cfg0.N⟩, ⟨S5000x128, (dats m 0 c).arrAt 5 cfg0.N⟩] concatenates_S5000x128_S5000x128_S10000x128_d0 := by
  rw [← Vt_lo, ← Vt_hi]
  simp only [hostOps1, StableHlo.after_cons, StableHlo.after_nil]
  exact StableHlo.binary_result' _ _ _ _ _

/-! ## The region -/

/-- The thread state at launch: the unscoped buffers as launched; the core owes nothing. -/
abbrev T₀ (c : Dev nD) : sProp 𝕄 :=
  iprop(unscopedBufs (Ix := Unit) (Name := ℕ) (U := UR sig nD τ) (Lvl := ℕ) c (V m c) ∗ Rw c)

theorem last_ne : (Fin.last cfg0.N).val ≠ 0 := by rw [Fin.val_last, N_eq]; decide

set_option backward.isDefEq.respectTransparency.types false in
/-- THE REGION: entered from the launch state, the adjacency matrix dealt in two halves to the two windows on it, the
    result's buffer bypassing; left with the arguments whole as launched and the two halves of the result written. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := T₀ m c
  post c := iprop(StableHlo.held (c : Thread nD τ) S3 (Vt m c) ∗ (Args m c ∗ Rw c))
  X _ := iprop(emp)
  Y _ := iprop(emp)
  Z c := ((c : Thread nD τ).loc main_v1) ↦{fullShare} V m c main_v1
  hentry c := by
    have hsplit := (Entails.of_eq (Pipeline.unscopedBufs_split₀ (Ix := Unit) (Name := ℕ) (U := UR sig nD τ) (Lvl := ℕ) cfgs 0 winFacts₀0.arr_unscoped c (V m c))).trans
      (BIClass.sep_mono (entry_split m c) (Entails.of_eq (unscopedRest0_eq c (V m c))))
    iintro ⟨⟨Hub, HO⟩, -, -⟩
    ihave H := hsplit $$ Hub
    icases H with ⟨Ha, H1⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H1
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [show (dats m 0 c).Φ (Fin.last cfg0.N) = PhiS m c (Fin.last cfg0.N).val from rfl, PhiS_pos m c _ last_ne, owns_whole]
    have e1 := Pipeline.ownSems0_none (nD := nD) (τ := τ) (sig := sig) (Ix := Unit) (Val := Elt F) (Name := ℕ) (U := UR sig nD τ) (Lvl := ℕ) c
    have e2 : iprop(∃ f : Buf (Elt F) ((c : Thread nD τ).loc cc0_scratch0), ((c : Thread nD τ).loc cc0_scratch0) ↦{fullShare} f)
        ⊢ (Pipeline.scopedRest (Ix := Unit) (Name := ℕ) (U := UR sig nD τ) (Lvl := ℕ) (Val := Elt F) spec0 c : sProp 𝕄) :=
      Entails.of_eq (scopedRest0_eq c).symm
    iintro HS
    isplitr; · iempintro
    isplitr; · rw [e1]; iempintro
    iapply e2
    iexists _; iexact HS
  hexit c := by
    iintro ⟨Ha, HO, -, HZ⟩
    ihave Ha := (exit_join m c) $$ Ha
    icases Ha with ⟨H0, H2, H1, H4, H5⟩
    imodintro
    isplitl [H4 H5 HZ]
    · rw [held_S3, Vt_lo, Vt_hi, Vt_v1]
      isplitl [H4]; · iexact H4
      isplitl [H5]; · iexact H5
      iexact HZ
    isplitl [H0 H2 H1]
    · isplitl [H0]; · iexact H0
      isplitl [H2]; · iexact H2
      iexact H1
    unfold Pipeline.Dat.owesAt Pipeline.owesWithin
    icases HO with ⟨%W, -, HO⟩; iexists W; iexact HO

/-- @main as the list of the two: the region, then the host line. -/
abbrev segs : List (Pipeline.Seg (pcfgs (F := F)) adm (dats m) () defs₀ 𝒱₀ L lv) := [.region (reg0 m), .host (seg1 m)]

/-- What is held at the end: the three buffers of the host line at its result, the arguments as launched. -/
abbrev Tₙ (c : Dev nD) : sProp 𝕄 :=
  iprop(StableHlo.held (c : Thread nD τ) S3 (StableHlo.after hostOps1 (Vt m c)) ∗ Args m c)

/-- The physical post: the result is the two halves the write-backs made, joined; the arguments are as launched. -/
def QC : PUnit × MemSt nD τ sig (Elt F) → Prop := fun r =>
  ∀ c : Dev nD,
    r.2.mem ((c.tc : Thread nD τ).loc main_v1)
        = concatenate S10000x128 0 [⟨S5000x128, (dats m 0 c).arrAt 4 cfg0.N⟩, ⟨S5000x128, (dats m 0 c).arrAt 5 cfg0.N⟩] concatenates_S5000x128_S5000x128_S10000x128_d0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)

set_option backward.isDefEq.respectTransparency.types false in
/-- At the compiled mesh, for any float values, from any memory with zero counters: every weakly fair execution of @main
    terminates, nothing faulting, the result at the two halves joined and the arguments unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := T₀ m) (Tₙ := Tₙ m)
    (hch := ⟨fun _ => .rfl, fun _ => .rfl, fun c =>
      (show iprop(StableHlo.held (c : Thread nD τ) S3 (StableHlo.after hostOps1 (Vt m c)) ∗ (Args m c ∗ Rw c))
          ⊢ iprop(Tₙ m c ∗ ∃ W, owes (c : Thread nD τ) (0 : CellTallies nD τ sig Unit) W) from by
        iintro ⟨Hh, Ha, HR⟩
        isplitl [Hh Ha]
        · isplitl [Hh] <;> iassumption
        iexact HR)⟩)
    (hinit := by
      refine Pipeline.initEach L lv fun c => ?_
      iintro ⟨⟨Hh, -, HO, -, -, -⟩, -⟩
      imodintro
      isplitl [Hh]; · iexact Hh
      iexists ∅; iexact HO)
    (QY := fun c s =>
      s.mem ((c.tc : Thread nD τ).loc main_v1)
          = concatenate S10000x128 0 [⟨S5000x128, (dats m 0 c).arrAt 4 cfg0.N⟩, ⟨S5000x128, (dats m 0 c).arrAt 5 cfg0.N⟩] concatenates_S5000x128_S5000x128_S10000x128_d0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tₙ]
      rw [held_S3]
      iintro ⟨⟨⟨-, -, Hv1⟩, H0, H2, H1⟩, HSI⟩
      icombine HSI Hv1 gives %hv
      icombine HSI H0 gives %h0
      icombine HSI H2 gives %h2
      icombine HSI H1 gives %h1
      imodintro
      isplitr
      · ipureintro
        exact ⟨(Buf.eq_of_forall_mem_univ hv).trans (tail_value m c), Buf.eq_of_forall_mem_univ h0, Buf.eq_of_forall_mem_univ h1, Buf.eq_of_forall_mem_univ h2⟩
      iexact HSI)
    (hQ := fun _ h => h)

end Cert.Proof.GcnW

end
-- ==== Proof.BlockProduct.lean ====
/-
  The kernel's three matrix products read at an index, over the extended reals. Each is a product into a zero
  accumulator, so its entry is the plain sum over the contracted axis of the products of the operands' entries:
  (X W) k n = sum over j of X k j times W j n, and for a block of 200 rows of the adjacency matrix,
  (A_blk Y) r n = sum over k of A_blk r k times Y k n. The first product also passes through a reshape of a shape
  to itself, which is the identity.
-/
import proofs.«171977_g15144054685790_cont_week2b_97_10_alg».proof.Proof.Gen.KernelIdeal.Skeleton
import Idealize.ShloMosaic.Lib.ValueIdx
import Idealize.ShloMosaic.Lib.Pipeline.Value
import Idealize.ShloMosaic.PureOps.Ideal.Laws

noncomputable section

namespace Cert.Proof.Gcn

open Idealize.ShloMosaic Idealize.SL.Sem Idealize.ShloMosaic.ValueIdx Cert.KernelIdeal Cert.KernelIdeal.Gen
open scoped BigOperators

/-! ## The operand indices of the two products: at output index (r, n) and contraction index q the left operand is
    read at (r, q) and the right operand at (q, n). -/

theorem proj_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem proj_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem proj_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem proj_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem rows_lhs0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem rows_lhs1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rows_rhs0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rows_rhs1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The three products at an index -/

/-- The projected features: (X W) k n is the sum over j of X k j times W j n. -/
theorem proj_apply (x : Vec Ideal S10000x128 .f32) (w : Vec Ideal S128x128 .f32) (k : Fin 10000) (n : Fin 128) :
    k0_pay1 (F := Ideal) x w (ix2 k n) = ∑ j : Fin 128, x (ix2 k j) * w (ix2 j n) := by
  unfold k0_pay1
  simp only [matmul]
  rw [shapeCast_self]
  rw [Ideal.matmul_constant_zero_apply, ← Equiv.sum_comp (contrEquiv1 dot_S10000x128_S128x128_S10000x128_1_0_0_1_n_n 128 rfl rfl).symm]
  refine Finset.sum_congr rfl fun j _ => ?_
  have hk := contrEquiv1_symm_val dot_S10000x128_S128x128_S10000x128_1_0_0_1_n_n 128 rfl rfl j
  have el : dot_S10000x128_S128x128_S10000x128_1_0_0_1_n_n.lhsIdx (ix2 k n) ((contrEquiv1 dot_S10000x128_S128x128_S10000x128_1_0_0_1_n_n 128 rfl rfl).symm j) = ix2 k j := funext fun a => Fin.ext (by
    match a with
    | ⟨0, _⟩ => exact proj_lhs0 _ _
    | ⟨1, _⟩ => exact (proj_lhs1 _ _).trans hk)
  have er : dot_S10000x128_S128x128_S10000x128_1_0_0_1_n_n.rhsIdx (ix2 k n) ((contrEquiv1 dot_S10000x128_S128x128_S10000x128_1_0_0_1_n_n 128 rfl rfl).symm j) = ix2 j n := funext fun a => Fin.ext (by
    match a with
    | ⟨0, _⟩ => exact (proj_rhs0 _ _).trans hk
    | ⟨1, _⟩ => exact proj_rhs1 _ _)
  rw [el, er]

/-- A block of 200 rows of the adjacency matrix times the projected features: entry (r, n) is the sum over k of
    A r k times Y k n. -/
theorem rows_apply (a : Vec Ideal S200x10000 .f32) (xw : Vec Ideal S10000x128 .f32) (r : Fin 200) (n : Fin 128) :
    k0_pay2 (F := Ideal) a xw (ix2 r n) = ∑ k : Fin 10000, a (ix2 r k) * xw (ix2 k n) := by
  unfold k0_pay2
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r n) ((contrEquiv1 dot_S200x10000_S10000x128_S200x128_1_0_0_1_n_n 10000 rfl rfl).symm k) = ix2 r k := funext fun a => Fin.ext (by
    match a with
    | ⟨0, _⟩ => exact rows_lhs0 _ _
    | ⟨1, _⟩ => exact (rows_lhs1 _ _).trans hk)
  have er : dot_S200x10000_S10000x128_S200x128_1_0_0_1_n_n.rhsIdx (ix2 r n) ((contrEquiv1 dot_S200x10000_S10000x128_S200x128_1_0_0_1_n_n 10000 rfl rfl).symm k) = ix2 k n := funext fun a => Fin.ext (by
    match a with
    | ⟨0, _⟩ => exact (rows_rhs0 _ _).trans hk
    | ⟨1, _⟩ => exact rows_rhs1 _ _)
  rw [el, er]

/-- The same for the second block of rows handled in one step. -/
theorem rows_apply' (a : Vec Ideal S200x10000 .f32) (xw : Vec Ideal S10000x128 .f32) (r : Fin 200) (n : Fin 128) :
    k0_pay3 (F := Ideal) a xw (ix2 r n) = ∑ k : Fin 10000, a (ix2 r k) * xw (ix2 k n) := by
  unfold k0_pay3
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r n) ((contrEquiv1 dot_S200x10000_S10000x128_S200x128_1_0_0_1_n_n 10000 rfl rfl).symm k) = ix2 r k := funext fun a => Fin.ext (by
    match a with
    | ⟨0, _⟩ => exact rows_lhs0 _ _
    | ⟨1, _⟩ => exact (rows_lhs1 _ _).trans hk)
  have er : dot_S200x10000_S10000x128_S200x128_1_0_0_1_n_n.rhsIdx (ix2 r n) ((contrEquiv1 dot_S200x10000_S10000x128_S200x128_1_0_0_1_n_n 10000 rfl rfl).symm k) = ix2 k n := funext fun a => Fin.ext (by
    match a with
    | ⟨0, _⟩ => exact (rows_rhs0 _ _).trans hk
    | ⟨1, _⟩ => exact rows_rhs1 _ _)
  rw [el, er]

end Cert.Proof.Gcn

end
-- ==== Proof.RefProduct.lean ====
/-
  The reference's result read at an index: the product of the adjacency matrix with the projected features,
  (A (X W)) i n = sum over k of A i k times (sum over j of X k j times W j n), over the extended reals.
-/
import proofs.«171977_g15144054685790_cont_week2b_97_10_alg».proof.Proof.Gen.ReferenceIdeal.Read
import Idealize.ShloMosaic.Lib.ValueIdx
import Idealize.ShloMosaic.PureOps.Ideal.Laws

noncomputable section

namespace Cert.Proof.Gcn

open Idealize.ShloMosaic Idealize.SL.Sem Idealize.ShloMosaic.ValueIdx Cert.ReferenceIdeal Cert.ReferenceIdeal.Read
open scoped BigOperators

/-- Entry (r, n) of the reference: the sum over k of A r k times the (k, n) entry of X W, itself the sum over j of
    X k j times W j n. The two host products are read one after the other; the operand indices they name are the
    pairs (r, k), (k, n) and (k, j), (j, n). -/
theorem ref_apply (x0 : (⟨S10000x128, .f32⟩ : BufTy).Contents (Elt Ideal))
    (x1 : (⟨S10000x10000, .f32⟩ : BufTy).Contents (Elt Ideal))
    (x2 : (⟨S128x128, .f32⟩ : BufTy).Contents (Elt Ideal)) (r : Fin 10000) (n : Fin 128) :
    val_main_v1 (F := Ideal) x0 x1 x2 (ix2 r n)
      = ∑ k : Fin 10000, x1 (ix2 r k) * ∑ j : Fin 128, x0 (ix2 k j) * x2 (ix2 j n) := by
  rw [val_main_v1_apply]
  refine Finset.sum_congr rfl fun k _ => ?_
  have e1 : lidx_main_v1 (ix2 r n) k = ix2 r k := funext fun a => by
    match a with
    | ⟨0, _⟩ => rfl
    | ⟨1, _⟩ => rfl
  have e2 : ridx_main_v1 (ix2 r n) k = ix2 k n := funext fun a => by
    match a with
    | ⟨0, _⟩ => rfl
    | ⟨1, _⟩ => rfl
  rw [e1, e2, val_main_v0_apply]
  refine congrArg (x1 (ix2 r k) * ·) (Finset.sum_congr rfl fun j _ => ?_)
  have e3 : lidx_main_v0 (ix2 k n) j = ix2 k j := funext fun a => by
    match a with
    | ⟨0, _⟩ => rfl
    | ⟨1, _⟩ => rfl
  have e4 : ridx_main_v0 (ix2 k n) j = ix2 j n := funext fun a => by
    match a with
    | ⟨0, _⟩ => rfl
    | ⟨1, _⟩ => rfl
  rw [e3, e4]

end Cert.Proof.Gcn

end
-- ==== Proof.Concat.lean ====
/-
  The host's concatenation of the two halves of the result along the rows, read at an index: row r of the whole is
  row r of the first half when r is below 5000, and row r - 5000 of the second half otherwise; the column is kept.
-/
import proofs.«171977_g15144054685790_cont_week2b_97_10_alg».proof.Proof.Gen.KernelIdeal
import Idealize.ShloMosaic.Lib.ValueIdx
import Idealize.ShloMosaic.Lib.Pipeline.Value

noncomputable section

namespace Cert.Proof.Gcn

open Idealize.ShloMosaic Idealize.SL.Sem Idealize.ShloMosaic.ValueIdx Cert.KernelIdeal

/-- The concatenation of two 5000-row halves at row r and column n. -/
theorem concat_apply {F : FTy → Type} (lo hi : (⟨S5000x128, .f32⟩ : BufTy).Contents (Elt F))
    (h : Shape.Concatenates [S5000x128, S5000x128] S10000x128 0) (r : Fin 10000) (n : Fin 128) :
    concatenate S10000x128 0 [⟨S5000x128, lo⟩, ⟨S5000x128, hi⟩] h (ix2 r n)
      = if hr : r.val < 5000 then lo (ix2 ⟨r.val, hr⟩ n)
        else hi (ix2 ⟨r.val - 5000, by have := r.isLt; omega⟩ n) := by
  by_cases hr : r.val < 5000
  · rw [dif_pos hr]
    exact concatenate_pair_apply_left (0 : Fin S10000x128.rank) lo hi h (ix2 r n) rfl (ix2 ⟨r.val, hr⟩ n)
      (fun b => match b with
        | ⟨0, _⟩ => rfl
        | ⟨1, _⟩ => rfl)
  · rw [dif_neg hr]
    exact concatenate_pair_apply_right (0 : Fin S10000x128.rank) lo hi h (ix2 r n) rfl rfl
      (ix2 ⟨r.val - 5000, by have := r.isLt; omega⟩ n)
      (fun b hb => match b, hb with
        | ⟨0, _⟩, hb => absurd rfl hb
        | ⟨1, _⟩, _ => rfl)
      (by show r.val - 5000 + 5000 = r.val; omega)

end Cert.Proof.Gcn

end
-- ==== Proof.LayerJoin.lean ====
/-
  The two halves of the result, joined along the rows, are the reference's product. If the first half holds rows
  0 to 4999 of A (X W) and the second half rows 5000 to 9999, then their concatenation is A (X W), entry by entry:
  row r of the whole is row r of the first half below 5000 and row r - 5000 of the second half from 5000 on.
-/
import proofs.«171977_g15144054685790_cont_week2b_97_10_alg».proof.Proof.RefProduct
import proofs.«171977_g15144054685790_cont_week2b_97_10_alg».proof.Proof.Concat

noncomputable section

namespace Cert.Proof.Gcn

open Idealize.ShloMosaic Idealize.SL.Sem Idealize.ShloMosaic.ValueIdx Cert.KernelIdeal
open scoped BigOperators

/-- The concatenation of the two halves is the reference's value, given each half's entries as the double sum. -/
theorem layer_eq (x0 : (⟨S10000x128, .f32⟩ : BufTy).Contents (Elt Ideal))
    (x1 : (⟨S10000x10000, .f32⟩ : BufTy).Contents (Elt Ideal))
    (x2 : (⟨S128x128, .f32⟩ : BufTy).Contents (Elt Ideal))
    (lo hi : (⟨S5000x128, .f32⟩ : BufTy).Contents (Elt Ideal))
    (h : Shape.Concatenates [S5000x128, S5000x128] S10000x128 0)
    (hlo : ∀ (r : Fin 5000) (n : Fin 128), lo (ix2 r n)
      = ∑ k : Fin 10000, x1 (ix2 ⟨r.val, by have := r.isLt; omega⟩ k) * ∑ j : Fin 128, x0 (ix2 k j) * x2 (ix2 j n))
    (hhi : ∀ (r : Fin 5000) (n : Fin 128), hi (ix2 r n)
      = ∑ k : Fin 10000, x1 (ix2 ⟨r.val + 5000, by have := r.isLt; omega⟩ k) * ∑ j : Fin 128, x0 (ix2 k j) * x2 (ix2 j n)) :
    concatenate S10000x128 0 [⟨S5000x128, lo⟩, ⟨S5000x128, hi⟩] h
      = Cert.ReferenceIdeal.Read.val_main_v1 (F := Ideal) x0 x1 x2 := by
  funext i
  obtain ⟨r, n, rfl⟩ : ∃ (r : Fin 10000) (n : Fin 128), i = ix2 r n := ⟨i 0, i 1, eq_ix2 i⟩
  rw [concat_apply, ref_apply]
  by_cases hr : r.val < 5000
  · -- a row of the first half: the same row of the whole
    rw [dif_pos hr, hlo]
  · -- a row of the second half: 5000 rows further down in the whole
    rw [dif_neg hr, hhi]
    have e : (⟨r.val - 5000 + 5000, by have := r.isLt; omega⟩ : Fin 10000) = r :=
      Fin.ext (by show r.val - 5000 + 5000 = r.val; omega)
    exact congrArg (fun t : Fin 10000 => ∑ k : Fin 10000, x1 (ix2 t k) * ∑ j : Fin 128, x0 (ix2 k j) * x2 (ix2 j n)) e

end Cert.Proof.Gcn

end
-- ==== Proof.HalvesValue.lean ====
/-
  From the blocks to the two halves of the result. Each grid point writes back one block of 200 rows to each half:
  the product of its 200 rows of the adjacency matrix A with the projected features X W. Entry by entry that block is
  the block of ONE function of the half's index, row R and column n going to the sum over k of A (R + offset) k times
  the sum over j of X k j times W j n, with offset 0 for the first half and 5000 for the second. The 25 blocks tile
  each half (row R lies in the block of point R / 200), so each half ends holding that function.
-/
import proofs.«171977_g15144054685790_cont_week2b_97_10_alg».proof.Proof.RegionData
import proofs.«171977_g15144054685790_cont_week2b_97_10_alg».proof.Proof.BlockProduct
import proofs.«171977_g15144054685790_cont_week2b_97_10_alg».proof.Proof.LayerJoin
import Idealize.ShloMosaic.Lib.Pipeline.Value
import Idealize.ShloMosaic.Lib.ValueIdx

set_option maxRecDepth 16384

noncomputable section

namespace Cert.Proof.GcnI

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx Cert.Proof.Gcn
open scoped BigOperators

variable (m : (ℓ : Loc nD τ sig) → Buf (Elt Ideal) ℓ) (c : Dev nD)

/-! ## The index maps, decided over the grid -/

/-- The printed index maps at every point t: the whole-array windows on X and W sit at block (0, 0); the two windows
    on the adjacency matrix at block rows t and t + 25; the two output windows at block row t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val + 25 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read where their arrays say -/

/-- The block of X a point is handed is X. -/
theorem xblk_eq (t : Fin cfg0.N) : (iblk m c 0 t : Vec Ideal S10000x128 .f32) = (V m c main_arg0 : S10000x128.Idx → Elt Ideal .f32) := by
  obtain ⟨e00, e01, -⟩ := idx_facts t
  funext y
  unfold iblk
  rw [View.read_apply]
  show V m c main_arg0 _ = V m c main_arg0 _
  congr 1
  funext a
  apply Fin.ext
  match a with
  | ⟨0, _⟩ => show win0_0.index t 0 * 10000 + 1 * (y 0).val = (y 0).val; rw [e00]; omega
  | ⟨1, _⟩ => show win0_0.index t 1 * 128 + 1 * (y 1).val = (y 1).val; rw [e01]; omega

/-- The block of W a point is handed is W. -/
theorem wblk_eq (t : Fin cfg0.N) : (iblk m c 1 t : Vec Ideal S128x128 .f32) = (V m c main_arg2 : S128x128.Idx → Elt Ideal .f32) := by
  obtain ⟨-, -, e10, e11, -⟩ := idx_facts t
  funext y
  unfold iblk
  rw [View.read_apply]
  show V m c main_arg2 _ = V m c main_arg2 _
  congr 1
  funext a
  apply Fin.ext
  match a with
  | ⟨0, _⟩ => show win0_1.index t 0 * 128 + 1 * (y 0).val = (y 0).val; rw [e10]; omega
  | ⟨1, _⟩ => show win0_1.index t 1 * 128 + 1 * (y 1).val = (y 1).val; rw [e11]; omega

/-- Entry (k, n) of the product of two matrices of these sizes: the sum over j of x0 k j times x2 j n. -/
def projAt (x0 : (⟨S10000x128, .f32⟩ : BufTy).Contents (Elt Ideal)) (x2 : (⟨S128x128, .f32⟩ : BufTy).Contents (Elt Ideal))
    (k : Fin 10000) (n : Fin 128) : EReal :=
  ∑ j : Fin 128, x0 (ix2 k j) * x2 (ix2 j n)

/-- Entry (R, n) of x1 (x0 x2): the sum over k of x1 R k times entry (k, n) of x0 x2. -/
def layerAt (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (R : Fin 10000) (n : Fin 128) : EReal :=
  ∑ k : Fin 10000, x1 (ix2 R k) * projAt x0 x2 k n

/-- The projected features the first point leaves in the scratch, entry by entry: (X W) k n. -/
theorem xw_apply (k : Fin 10000) (n : Fin 128) :
    xw m c (ix2 k n) = projAt (V m c main_arg0) (V m c main_arg2) k n := by
  unfold xw
  refine (proj_apply (iblk m c 0 t₀) (iblk m c 1 t₀) k n).trans ?_
  unfold projAt
  refine Finset.sum_congr rfl fun j _ => ?_
  rw [congrFun (xblk_eq m c t₀) (ix2 k j), congrFun (wblk_eq m c t₀) (ix2 j n)]

/-! ## The first half: rows 0 to 4999 of the product -/

/-- The block of the adjacency matrix the point is handed for this half, read where the matrix says: its row r is
    row (t.val) * 200 + r of the matrix. -/
theorem ablk_lo_apply (t : Fin cfg0.N) (y : S200x10000.Idx) (i : S10000x10000.Idx)
    (h0 : (i 0).val = (t.val) * 200 + (y 0).val) (h1 : (i 1).val = (y 1).val) :
    (iblk m c 2 t : Vec Ideal S200x10000 .f32) y = (V m c main_arg1 : S10000x10000.Idx → Elt Ideal .f32) i := by
  obtain ⟨-, -, -, -, e20, e21, e30, e31, e40, e41, e50, e51⟩ := idx_facts t
  unfold iblk
  rw [View.read_apply]
  show V m c main_arg1 _ = V m c main_arg1 _
  congr 1
  funext a
  apply Fin.ext
  match a with
  | ⟨0, _⟩ => show win0_2.index t 0 * 200 + 1 * (y 0).val = (i 0).val; rw [e20, h0]; omega
  | ⟨1, _⟩ => show win0_2.index t 1 * 10000 + 1 * (y 1).val = (i 1).val; rw [e21, h1]; omega

/-- What this half of the result ends holding, as one function of the index: row R of the half is row R + 0 of
    the product. -/
def G_lo : S5000x128.Idx → Elt Ideal .f32 := fun i =>
  layerAt (V m c main_arg0) (V m c main_arg1) (V m c main_arg2) ⟨(i 0).val + 0, by have := idx2_lt0 i; omega⟩ (i 1)

/-- The point's product, entry by entry, is the block of that function the output's rectangle names. -/
theorem block_lo (t : Fin cfg0.N) (y : S200x128.Idx) (i : S5000x128.Idx)
    (h0 : (i 0).val = t.val * 200 + (y 0).val) (h1 : (i 1).val = (y 1).val) :
    k0_pay2 (F := Ideal) (iblk m c 2 t) (xw m c) y = G_lo m c i := by
  obtain ⟨r, n, rfl⟩ : ∃ (r : Fin 200) (n : Fin 128), y = ix2 r n := ⟨y 0, y 1, eq_ix2 y⟩
  obtain ⟨R, n', rfl⟩ : ∃ (R : Fin 5000) (n' : Fin 128), i = ix2 R n' := ⟨i 0, i 1, eq_ix2 i⟩
  obtain rfl : n' = n := Fin.ext h1
  have hR : R.val = t.val * 200 + r.val := h0
  refine (rows_apply (iblk m c 2 t) (xw m c) r n').trans ?_
  show _ = layerAt (V m c main_arg0) (V m c main_arg1) (V m c main_arg2) ⟨R.val + 0, by have := R.isLt; omega⟩ n'
  unfold layerAt
  refine Finset.sum_congr rfl fun k _ => ?_
  rw [xw_apply]
  refine congrArg (fun z : EReal => z * projAt (V m c main_arg0) (V m c main_arg2) k n') ?_
  exact ablk_lo_apply m c t (ix2 r k) (ix2 ⟨R.val + 0, by have := R.isLt; omega⟩ k)
    (by show R.val + 0 = (t.val) * 200 + r.val; omega) rfl

/-- What a point writes back to this half is its block of that function. -/
theorem flushed_lo (t : Fin cfg0.N) :
    (dats (F := Ideal) m 0 c).flushed 4 t = ((cfg0.win 4).blk t).view.read (Elt Ideal) (G_lo m c) := by
  obtain ⟨-, -, -, -, e20, e21, e30, e31, e40, e41, e50, e51⟩ := idx_facts t
  show (cfg0.win 4).cut (grid0.coords t) ((dats (F := Ideal) m 0 c).after 4 t) = _
  rw [after_4]
  funext y
  show k0_pay2 (F := Ideal) (iblk m c 2 t) (xw m c) y = G_lo m c (((cfg0.win 4).blk t).view.emb y)
  refine block_lo m c t y _ ?_ ?_
  · show win0_4.index t 0 * 200 + 1 * (y 0).val = t.val * 200 + (y 0).val; rw [e40]; omega
  · show win0_4.index t 1 * 128 + 1 * (y 1).val = (y 1).val; rw [e41]; omega

/-- An index of this half is in a point's block iff each coordinate is in the block's range on its axis. -/
theorem mem_blk_lo (t : Fin cfg0.N) (i : S5000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0_0).slice (win0_4.rect t)).set ↔ _
  rw [View.set_slice_whole, Rect.mem_set_unit]
  exact Iff.rfl

/-- Every index of this half is in some point's block: row R is in the block of point R / 200. -/
theorem cover_lo (i : S5000x128.Idx) :
    ∃ t : Fin cfg0.N, (cfg0.win 4).flush t = true ∧ i ∈ ((cfg0.win 4).blk t).view.set := by
  have hi0 : (i 0).val < 5000 := idx2_lt0 i
  have hi1 : (i 1).val < 128 := idx2_lt1 i
  obtain ⟨t, ht⟩ : ∃ t : Fin cfg0.N, t.val = (i 0).val / 200 := ⟨⟨(i 0).val / 200, by rw [N_eq]; omega⟩, rfl⟩
  obtain ⟨-, -, -, -, e20, e21, e30, e31, e40, e41, e50, e51⟩ := idx_facts t
  refine ⟨t, flush0_4 t, ?_⟩
  rw [mem_blk_lo]
  intro a
  match a with
  | ⟨0, _⟩ => show win0_4.index t 0 * 200 ≤ (i 0).val ∧ (i 0).val < win0_4.index t 0 * 200 + 200; rw [e40]; omega
  | ⟨1, _⟩ => show win0_4.index t 1 * 128 ≤ (i 1).val ∧ (i 1).val < win0_4.index t 1 * 128 + 128; rw [e41]; omega

/-- So this half ends holding that function. -/
theorem arr_lo : (dats (F := Ideal) m 0 c).arrAt 4 cfg0.N = G_lo m c :=
  (dats (F := Ideal) m 0 c).arrAt_eq_of_cover 4 (G_lo m c) (fun t _ => flushed_lo m c t) (cover_lo)

/-- This half at row r and column n: row r of the product. -/
theorem final_lo (r : Fin 5000) (n : Fin 128) :
    ((dats (F := Ideal) m 0 c).arrAt 4 cfg0.N : S5000x128.Idx → Elt Ideal .f32) (ix2 r n)
      = layerAt (V m c main_arg0) (V m c main_arg1) (V m c main_arg2) ⟨r.val, by have := r.isLt; omega⟩ n := by
  rw [arr_lo]
  rfl

/-! ## The second half: rows 5000 to 9999 of the product -/

/-- The block of the adjacency matrix the point is handed for this half, read where the matrix says: its row r is
    row (t.val + 25) * 200 + r of the matrix. -/
theorem ablk_hi_apply (t : Fin cfg0.N) (y : S200x10000.Idx) (i : S10000x10000.Idx)
    (h0 : (i 0).val = (t.val + 25) * 200 + (y 0).val) (h1 : (i 1).val = (y 1).val) :
    (iblk m c 3 t : Vec Ideal S200x10000 .f32) y = (V m c main_arg1 : S10000x10000.Idx → Elt Ideal .f32) i := by
  obtain ⟨-, -, -, -, e20, e21, e30, e31, e40, e41, e50, e51⟩ := idx_facts t
  unfold iblk
  rw [View.read_apply]
  show V m c main_arg1 _ = V m c main_arg1 _
  congr 1
  funext a
  apply Fin.ext
  match a with
  | ⟨0, _⟩ => show win0_3.index t 0 * 200 + 1 * (y 0).val = (i 0).val; rw [e30, h0]; omega
  | ⟨1, _⟩ => show win0_3.index t 1 * 10000 + 1 * (y 1).val = (i 1).val; rw [e31, h1]; omega

/-- What this half of the result ends holding, as one function of the index: row R of the half is row R + 5000 of
    the product. -/
def G_hi : S5000x128.Idx → Elt Ideal .f32 := fun i =>
  layerAt (V m c main_arg0) (V m c main_arg1) (V m c main_arg2) ⟨(i 0).val + 5000, by have := idx2_lt0 i; omega⟩ (i 1)

/-- The point's product, entry by entry, is the block of that function the output's rectangle names. -/
theorem block_hi (t : Fin cfg0.N) (y : S200x128.Idx) (i : S5000x128.Idx)
    (h0 : (i 0).val = t.val * 200 + (y 0).val) (h1 : (i 1).val = (y 1).val) :
    k0_pay3 (F := Ideal) (iblk m c 3 t) (xw m c) y = G_hi m c i := by
  obtain ⟨r, n, rfl⟩ : ∃ (r : Fin 200) (n : Fin 128), y = ix2 r n := ⟨y 0, y 1, eq_ix2 y⟩
  obtain ⟨R, n', rfl⟩ : ∃ (R : Fin 5000) (n' : Fin 128), i = ix2 R n' := ⟨i 0, i 1, eq_ix2 i⟩
  obtain rfl : n' = n := Fin.ext h1
  have hR : R.val = t.val * 200 + r.val := h0
  refine (rows_apply' (iblk m c 3 t) (xw m c) r n').trans ?_
  show _ = layerAt (V m c main_arg0) (V m c main_arg1) (V m c main_arg2) ⟨R.val + 5000, by have := R.isLt; omega⟩ n'
  unfold layerAt
  refine Finset.sum_congr rfl fun k _ => ?_
  rw [xw_apply]
  refine congrArg (fun z : EReal => z * projAt (V m c main_arg0) (V m c main_arg2) k n') ?_
  exact ablk_hi_apply m c t (ix2 r k) (ix2 ⟨R.val + 5000, by have := R.isLt; omega⟩ k)
    (by show R.val + 5000 = (t.val + 25) * 200 + r.val; omega) rfl

/-- What a point writes back to this half is its block of that function. -/
theorem flushed_hi (t : Fin cfg0.N) :
    (dats (F := Ideal) m 0 c).flushed 5 t = ((cfg0.win 5).blk t).view.read (Elt Ideal) (G_hi m c) := by
  obtain ⟨-, -, -, -, e20, e21, e30, e31, e40, e41, e50, e51⟩ := idx_facts t
  show (cfg0.win 5).cut (grid0.coords t) ((dats (F := Ideal) m 0 c).after 5 t) = _
  rw [after_5]
  funext y
  show k0_pay3 (F := Ideal) (iblk m c 3 t) (xw m c) y = G_hi m c (((cfg0.win 5).blk t).view.emb y)
  refine block_hi m c t y _ ?_ ?_
  · show win0_5.index t 0 * 200 + 1 * (y 0).val = t.val * 200 + (y 0).val; rw [e50]; omega
  · show win0_5.index t 1 * 128 + 1 * (y 1).val = (y 1).val; rw [e51]; omega

/-- An index of this half is in a point's block iff each coordinate is in the block's range on its axis. -/
theorem mem_blk_hi (t : Fin cfg0.N) (i : S5000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v0_1).slice (win0_5.rect t)).set ↔ _
  rw [View.set_slice_whole, Rect.mem_set_unit]
  exact Iff.rfl

/-- Every index of this half is in some point's block: row R is in the block of point R / 200. -/
theorem cover_hi (i : S5000x128.Idx) :
    ∃ t : Fin cfg0.N, (cfg0.win 5).flush t = true ∧ i ∈ ((cfg0.win 5).blk t).view.set := by
  have hi0 : (i 0).val < 5000 := idx2_lt0 i
  have hi1 : (i 1).val < 128 := idx2_lt1 i
  obtain ⟨t, ht⟩ : ∃ t : Fin cfg0.N, t.val = (i 0).val / 200 := ⟨⟨(i 0).val / 200, by rw [N_eq]; omega⟩, rfl⟩
  obtain ⟨-, -, -, -, e20, e21, e30, e31, e40, e41, e50, e51⟩ := idx_facts t
  refine ⟨t, flush0_5 t, ?_⟩
  rw [mem_blk_hi]
  intro a
  match a with
  | ⟨0, _⟩ => show win0_5.index t 0 * 200 ≤ (i 0).val ∧ (i 0).val < win0_5.index t 0 * 200 + 200; rw [e50]; omega
  | ⟨1, _⟩ => show win0_5.index t 1 * 128 ≤ (i 1).val ∧ (i 1).val < win0_5.index t 1 * 128 + 128; rw [e51]; omega

/-- So this half ends holding that function. -/
theorem arr_hi : (dats (F := Ideal) m 0 c).arrAt 5 cfg0.N = G_hi m c :=
  (dats (F := Ideal) m 0 c).arrAt_eq_of_cover 5 (G_hi m c) (fun t _ => flushed_hi m c t) (cover_hi)

/-- This half at row r and column n: row r + 5000 of the product. -/
theorem final_hi (r : Fin 5000) (n : Fin 128) :
    ((dats (F := Ideal) m 0 c).arrAt 5 cfg0.N : S5000x128.Idx → Elt Ideal .f32) (ix2 r n)
      = layerAt (V m c main_arg0) (V m c main_arg1) (V m c main_arg2) ⟨r.val + 5000, by have := r.isLt; omega⟩ n := by
  rw [arr_hi]
  rfl

/-! ## The two halves joined -/

/-- The two halves as the run leaves them, joined along the rows, are the reference's product of the arrays the
    region finds. -/
theorem halves_join (h : Shape.Concatenates [S5000x128, S5000x128] S10000x128 0) :
    concatenate S10000x128 0 [⟨S5000x128, (dats (F := Ideal) m 0 c).arrAt 4 cfg0.N⟩, ⟨S5000x128, (dats (F := Ideal) m 0 c).arrAt 5 cfg0.N⟩] h
      = Cert.ReferenceIdeal.Read.val_main_v1 (F := Ideal) (V m c main_arg0) (V m c main_arg1) (V m c main_arg2) :=
  layer_eq (V m c main_arg0) (V m c main_arg1) (V m c main_arg2) _ _ h (final_lo m c) (final_hi m c)

end Cert.Proof.GcnI

end
-- ==== Proof.lean ====
/-
  A graph-convolution layer Y = A (X W): X the node features (10000 by 128), W the weights (128 by 128), A the dense
  normalised adjacency matrix (10000 by 10000).

  The kernel walks a grid of 25 points. At the first point it forms the projected features X W once and keeps them
  in a scratch buffer; at every point t it multiplies two blocks of 200 rows of A with them, rows 200 t .. 200 t + 199
  and rows 5000 + 200 t .. 5000 + 200 t + 199, and writes the two products into block t of the upper and of the lower
  half of the result; the host joins the halves along the rows. The reference multiplies X by W and A by the product.

  Over the extended reals both are, entry by entry, the same nested sum
      Y r n = sum over k of A r k * (sum over j of X k j * W j n),
  with the same grouping on both sides: row r of the result lies in block r / 200 of the upper half when r < 5000 and in
  block (r - 5000) / 200 of the lower half otherwise, and that block's entry is the sum above because a product of a
  block of rows of A is that block of rows of the product. The accumulator of each product starts at zero, which adds
  nothing. No law that fails at an infinity is used, so the inputs' finiteness is never opened.

  The run of the kernel, for any float values: every weakly fair execution terminates without a fault, the three
  arguments end as launched (the adjacency matrix is read through two windows, each holding half of it, and is whole
  again at the end), and the result holds the two written halves joined. The word-level program's frame is the same
  run read at machine words.
-/
import proofs.«171977_g15144054685790_cont_week2b_97_10_alg».proof.Defs
import proofs.«171977_g15144054685790_cont_week2b_97_10_alg».proof.Proof.Gen.Kernel
import proofs.«171977_g15144054685790_cont_week2b_97_10_alg».proof.Proof.Gen.KernelIdeal
import proofs.«171977_g15144054685790_cont_week2b_97_10_alg».proof.Proof.Gen.ReferenceIdeal
import proofs.«171977_g15144054685790_cont_week2b_97_10_alg».proof.Proof.Gen.Pre_finite_inputs
import proofs.«171977_g15144054685790_cont_week2b_97_10_alg».proof.Proof.Gen.ReferenceIdeal.Read
import proofs.«171977_g15144054685790_cont_week2b_97_10_alg».proof.Proof.Segments
import proofs.«171977_g15144054685790_cont_week2b_97_10_alg».proof.Proof.Word.Segments
import proofs.«171977_g15144054685790_cont_week2b_97_10_alg».proof.Proof.HalvesValue
import Idealize.ShloMosaic.Adequacy
import Idealize.ShloMosaic.Init

noncomputable section

namespace Cert.Proof

open Idealize.ShloMosaic Idealize.SL.Sem

/-- The word-level kernel runs to the end and leaves its arguments as launched. -/
theorem frame_word : Cert.frame_Kernel := fun m ρ _ =>
  (θ_run Cert.Kernel.defs _ _).mono (fun _ h c => (h c).2) (Cert.Proof.GcnW.run_main (F := Bits) m ρ)

/-- So does the kernel read over the extended reals. -/
theorem frame_ideal : Cert.frame_KernelIdeal := fun m ρ _ =>
  (θ_run Cert.KernelIdeal.defs _ _).mono (fun _ h c => (h c).2) (Cert.Proof.GcnI.run_main (F := Ideal) m ρ)

/-- The reference is two host products: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on X, A and W both programs end at the product A (X W), entry by entry the same nested sum:
    the kernel's two halves joined are it, and the reference's two products are it by definition. -/
theorem algebraic : Cert.algebraic_KernelIdeal_ReferenceIdeal := by
  intro m ρ m' ρ' _ hagree
  refine ⟨fun c => Cert.ReferenceIdeal.Read.val_main_v1 (F := Ideal) (Cert.Proof.GcnI.V m c Cert.KernelIdeal.main_arg0)
    (Cert.Proof.GcnI.V m c Cert.KernelIdeal.main_arg1) (Cert.Proof.GcnI.V m c Cert.KernelIdeal.main_arg2), ?_, ?_⟩
  · exact (θ_run Cert.KernelIdeal.defs _ _).mono
      (fun _ h c => ⟨(h c).1.trans (Cert.Proof.GcnI.halves_join m c _), (h c).2⟩) (Cert.Proof.GcnI.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v1_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
